-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S11440x11440 : Shape := ⟨2, ![11440, 11440]⟩
abbrev S11440 : Shape := ⟨1, ![11440]⟩
abbrev S_ : Shape := ⟨0, ![]⟩

class Facts : Prop where
  bcast_S_S11440x11440 : S_.BroadcastsInDim S11440x11440 (![] : Fin 0 → Fin S11440x11440.rank)
  reducesTo_S11440x11440_S_d0_1 : S11440x11440.ReducesTo [0, 1] S_
  h_S_ : 0 < S_.numel

variable [Facts]

def fn {F : FTy → Type} [FloatOps F] (main_arg0 : FVec F S11440x11440 .f32) (main_arg1 : IVec S11440 32) : IVec S_ 1 :=
  let main_v0 : FVec F S11440x11440 .f32 := Host.absf main_arg0
  let main_cst : FVec F S_ .f32 := constant S_ .f32 0x7F800000#32
  let main_v1 : FVec F S11440x11440 .f32 := broadcastInDim S11440x11440 ![] bcast_S_S11440x11440 main_cst
  let main_v2 : IVec S11440x11440 1 := cmpf .olt main_v0 main_v1
  let main_c : IVec S_ 1 := constantI S_ 1 1#1
  let main_v3 : IVec S_ 1 := (fun x v => Host.reduce IntOp.andi x v reducesTo_S11440x11440_S_d0_1 h_S_) main_v2 main_c
  main_v3
-- ==== Kernel.lean ====
abbrev S11440x11440 : Shape := ⟨2, ![11440, 11440]⟩
abbrev S11440 : Shape := ⟨1, ![11440]⟩
abbrev S_ : Shape := ⟨0, ![]⟩
abbrev S11520 : Shape := ⟨1, ![11520]⟩
abbrev S1x11520 : Shape := ⟨2, ![1, 11520]⟩
abbrev S1280x1280 : Shape := ⟨2, ![1280, 1280]⟩
abbrev S1x1280 : Shape := ⟨2, ![1, 1280]⟩
abbrev S1280x1 : Shape := ⟨2, ![1280, 1]⟩

abbrev nBuf : Space → Nat
  | .hbm => 7
  | .vmem => 8
  | .smem => 0
  | _ => 0

abbrev bufTy : (tb : Table) → Fin (tcTables nBuf tb) → BufTy
  | .hbm, ⟨0, _⟩ => ⟨S11440x11440, .f32⟩
  | .hbm, ⟨1, _⟩ => ⟨S11440, .i32⟩
  | .hbm, ⟨2, _⟩ => ⟨S_, .i32⟩
  | .hbm, ⟨3, _⟩ => ⟨S_, .i32⟩
  | .hbm, ⟨4, _⟩ => ⟨S11520, .i32⟩
  | .hbm, ⟨5, _⟩ => ⟨S1x11520, .i32⟩
  | .hbm, ⟨6, _⟩ => ⟨S11440x11440, .f32⟩
  | .local _ .vmem, ⟨0, _⟩ => ⟨S1280x1280, .f32⟩
  | .local _ .vmem, ⟨1, _⟩ => ⟨S1280x1280, .f32⟩
  | .local _ .vmem, ⟨2, _⟩ => ⟨S1x1280, .i32⟩
  | .local _ .vmem, ⟨3, _⟩ => ⟨S1x1280, .i32⟩
  | .local _ .vmem, ⟨4, _⟩ => ⟨S1x1280, .i32⟩
  | .local _ .vmem, ⟨5, _⟩ => ⟨S1x1280, .i32⟩
  | .local _ .vmem, ⟨6, _⟩ => ⟨S1280x1280, .f32⟩
  | .local _ .vmem, ⟨7, _⟩ => ⟨S1280x1280, .f32⟩
  | _, _ => ⟨S11440x11440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S11440_S11520_0800 : S11440.Pads (![0] : Fin 1 → Nat) ![80] ![0] S11520
  h_S_ : 0 < S_.numel
  shapeCasts_S11520_S1x11520 : S11520.ShapeCasts S1x11520
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  transposes_S1x1280_p1_0_S1280x1 : S1x1280.Transposes [1, 0] S1280x1
  broadcasts_S1280x1_S1280x1280 : S1280x1.Broadcasts S1280x1280
  broadcasts_S1x1280_S1280x1280 : S1x1280.Broadcasts S1280x1280
  inb_S1280x1280_S1280x1280_0_0 : ∀ a, (![0, 0] : Fin 2 → Nat) a + S1280x1280.size a ≤ S1280x1280.size a
  h_S1280x1280 : 0 < S1280x1280.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1280x1280.size a < S11440x11440.size a
  hwx0_0 : ∀ i : grid0.Coords, EltTy.bits .f32 = 32 ∨ (Rect.unit (s := S11440x11440) (fun a => cc0_transform_0 i a * S1280x1280.size a) (fun a => (Pipeline.Clip.of (cc0_transform_0 i a) (S1280x1280.size a) (S11440x11440.size a)).extent (S1280x1280.size a)) fun a => Pipeline.Clip.inb (Pipeline.Clip.ok_of (hstart0_0 i a))).WholeWords (EltTy.packing .f32)
  hwxs0_0 : ∀ i : grid0.Coords, EltTy.bits .f32 = 32 ∨ (Rect.unit (s := S1280x1280) (fun _ => 0) (fun a => (Pipeline.Clip.of (cc0_transform_0 i a) (S1280x1280.size a) (S11440x11440.size a)).extent (S1280x1280.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x11520.size a
  hwx0_1 : ∀ i : grid0.Coords, EltTy.bits .i32 = 32 ∨ (Rect.block (s := S1x11520) S1x1280.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x11520.size a
  hwx0_2 : ∀ i : grid0.Coords, EltTy.bits .i32 = 32 ∨ (Rect.block (s := S1x11520) S1x1280.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1280x1280.size a < S11440x11440.size a
  hwx0_3 : ∀ i : grid0.Coords, EltTy.bits .f32 = 32 ∨ (Rect.unit (s := S11440x11440) (fun a => cc0_transform_3 i a * S1280x1280.size a) (fun a => (Pipeline.Clip.of (cc0_transform_3 i a) (S1280x1280.size a) (S11440x11440.size a)).extent (S1280x1280.size a)) fun a => Pipeline.Clip.inb (Pipeline.Clip.ok_of (hstart0_3 i a))).WholeWords (EltTy.packing .f32)
  hwxs0_3 : ∀ i : grid0.Coords, EltTy.bits .f32 = 32 ∨ (Rect.unit (s := S1280x1280) (fun _ => 0) (fun a => (Pipeline.Clip.of (cc0_transform_3 i a) (S1280x1280.size a) (S11440x11440.size a)).extent (S1280x1280.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_arg0) S1280x1280.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S1280x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S11440x11440 : Shape := ⟨2, ![11440, 11440]⟩
abbrev S11440 : Shape := ⟨1, ![11440]⟩
abbrev S11440x1 : Shape := ⟨2, ![11440, 1]⟩
abbrev S1x11440 : Shape := ⟨2, ![1, 11440]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S11440x11440, .f32⟩
  | .hbm, ⟨1, _⟩ => ⟨S11440, .i32⟩
  | .hbm, ⟨2, _⟩ => ⟨S11440x1, .i32⟩
  | .hbm, ⟨3, _⟩ => ⟨S1x11440, .i32⟩
  | .hbm, ⟨4, _⟩ => ⟨S11440x11440, .i32⟩
  | .hbm, ⟨5, _⟩ => ⟨S11440x11440, .i32⟩
  | .hbm, ⟨6, _⟩ => ⟨S11440x11440, .i1⟩
  | .hbm, ⟨7, _⟩ => ⟨S_, .f32⟩
  | .hbm, ⟨8, _⟩ => ⟨S11440x11440, .f32⟩
  | .hbm, ⟨9, _⟩ => ⟨S11440x11440, .f32⟩
  | _, _ => ⟨S11440x11440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S11440_S11440x1_0 : S11440.BroadcastsInDim S11440x1 (![0] : Fin 1 → Fin S11440x1.rank)
  bcast_S11440_S1x11440_1 : S11440.BroadcastsInDim S1x11440 (![1] : Fin 1 → Fin S1x11440.rank)
  bcast_S11440x1_S11440x11440_0_1 : S11440x1.BroadcastsInDim S11440x11440 (![0, 1] : Fin 2 → Fin S11440x11440.rank)
  bcast_S1x11440_S11440x11440_0_1 : S1x11440.BroadcastsInDim S11440x11440 (![0, 1] : Fin 2 → Fin S11440x11440.rank)
  bcast_S_S11440x11440 : S_.BroadcastsInDim S11440x11440 (![] : Fin 0 → Fin S11440x11440.rank)

variable [Facts₀]

class Facts : Prop extends Facts₀ where

variable [Facts]
-- ==== Proof.BitsTileBody.lean ====
/-
  One grid point of the masking kernel, as a statement about its four staging buffers.
  The body reads a row of 1280 group ids aligned with the tile's rows, a row of 1280 group ids aligned with its
  columns, and a 1280 x 1280 tile of the matrix; it writes, over the whole output tile, the matrix entry where the
  row's id equals the column's id and the zero word elsewhere. It also reads the output tile once and discards what
  it read. Nothing else is touched: the three inputs are left as found.
-/
import proofs.«110070_j50216757625014_2_alg».proof.Proof.Gen.Kernel.Launch
import proofs.«110070_j50216757625014_2_alg».proof.Proof.Gen.Kernel.Skeleton
import proofs.«110070_j50216757625014_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole row of 1280 ids, as the rectangle the two row loads read. -/
abbrev rowRect : Rect S1x1280 := Rect.unit (s := S1x1280) ![0, 0] S1x1280.size inb_S1x1280_S1x1280_0_0
/-- The whole 1280 x 1280 tile, as the rectangle the tile load and the store use. -/
abbrev tileRect : Rect S1280x1280 := Rect.unit (s := S1280x1280) ![0, 0] S1280x1280.size inb_S1280x1280_S1280x1280_0_0

/-- What the output tile holds after the body, from what the three inputs hold: its one store, over the whole tile,
    of the masked tile. -/
def outTile (x0 : Vec F S1280x1280 .f32) (x1 : Vec F S1x1280 .i32) (x2 : Vec F S1x1280 .i32) : Vec F S1280x1280 .f32 :=
  View.canon [⟨tileRect, k0_pay1 (View.ld x1 rowRect) (View.ld x2 rowRect) (View.ld x0 tileRect)⟩]

/-- The one store covers the tile. -/
theorem coverTile (p0 : Vec F S1280x1280 .f32) (y : S1280x1280.Idx) :
    ∃ pc ∈ ([⟨tileRect, p0⟩] : List (View.Piece (Elt F) S1280x1280 .f32)), y ∈ pc.1.set :=
  View.cover_of_tiled [⟨tileRect, p0⟩] S1280x1280.size (by rfl) y

set_option maxHeartbeats 1000000 in
/-- The body on whole staging memrefs: the matrix tile at `x0`, the row-aligned ids at `x1`, the column-aligned ids
    at `x2`, the output tile at anything. It runs to the continuation with the inputs as they were and the output tile
    at `outTile x0 x1 x2`. -/
theorem sound_kernel (c : Dev nD) (E : Set ℕ) (i : grid0.Coords)
    (arg2 : Memref sig .tc .vmem S1280x1280 .f32) (harg2 : arg2.IsWhole)
    (arg3 : Memref sig .tc .vmem S1x1280 .i32) (harg3 : arg3.IsWhole)
    (arg4 : Memref sig .tc .vmem S1x1280 .i32) (harg4 : arg4.IsWhole)
    (arg5 : Memref sig .tc .vmem S1280x1280 .f32) (harg5 : arg5.IsWhole)
    (x0 : Vec F S1280x1280 .f32) (x1 : Vec F S1x1280 .i32) (x2 : Vec F S1x1280 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (outTile x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTile _)

end Cert.Kernel.Tiles

end
-- ==== Proof.BitsTileData.lean ====
/-
  What each staging buffer holds at each of the 81 grid points, and the body's obligation there.
  The matrix is cut into 9 x 9 tiles of 1280 x 1280; 9 * 1280 = 11520 exceeds 11440, so the last tile of each axis
  overhangs the matrix by 80 and its transfers are cut to the 1200 rows or columns inside. A cut fetch leaves the part
  of the buffer past the matrix at contents nobody names; since the body works entry by entry, what it writes on the
  part inside the matrix does not depend on them, and that part is all the write-back moves. The padded row of group
  ids (11520 long) is read through two windows — block i for the tile's rows, block j for its columns — and both lie
  inside it at every point.
-/
import proofs.«110070_j50216757625014_2_alg».proof.Proof.BitsTileBody
import Idealize.ShloMosaic.Lib.Pipeline.Frame

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's region -/

/-- The device's buffers when the region is entered: after the constant -1, the padding of the ids to 11520 and its
    reshaping into one row. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is those three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes the matrix: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the ids. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the region finds it: for the matrix and the result, the
    part of the tile inside the matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The matrix tile at point `t` as a full 1280 x 1280 tile: its part inside the matrix, and the zero word past the
    matrix's end (a filler nothing reads). -/
def tileIn (c : Dev nD) (t : Fin cfg0.N) : S1280x1280.Idx → Elt F .f32 :=
  win0_0.fill (grid0.coords t) (fun _ => Scalar.ofBits .f32 0#32) (iblk m c 0 t)

/-! ## The proof data -/

/-- After the body at point `t`: the matrix's buffer holds its tile, the two id buffers their blocks, the result's the
    masked tile. No invariant, nothing owed; the one row array is held half and half by its two windows. -/
def dats (_ : Fin 1) (c : Dev nD) : Dat τ (Elt F) Unit ℕ (UR sig nD τ) ℕ cfg0 c where
  A w := V m c (Pipeline.arrRef spec0 w)
  after w t := match w with
    | ⟨0, _⟩ => tileIn m c t
    | ⟨1, _⟩ => iblk m c 1 t
    | ⟨2, _⟩ => iblk m c 2 t
    | ⟨3, _⟩ => outTile (tileIn m c t) (iblk m c 1 t) (iblk m c 2 t)
  Φ _ := iprop(emp)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tileIn m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outTile (tileIn m c t) (iblk m c 1 t) (iblk m c 2 t) := by dsimp only [dats]

/-! ## What the body finds -/

/-- The matrix's buffer was just fetched: its tile's part inside the matrix, and `d` past the matrix's end. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl

/-- The row-aligned ids' buffer holds block i, fetched at this point or kept from the point before (the block index
    moves only when the row of tiles changes). -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The column-aligned ids' buffer holds block j. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The result's buffer is fresh at every point (every point writes its tile back): it holds anything. -/
theorem before0_3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

end Cert.Kernel.Tiles

end
-- ==== Proof.BitsTileRun.lean ====
/-
  The launch of the masking kernel and what it leaves: every weakly fair execution ends, nothing faults, the
  matrix and the ids are as launched, and the result array holds what the 81 write-backs put there.
  Three facts carry it. (1) The body's one store covers its tile, so the tile ends at the masked tile, and the masked
  tile is an entrywise choice between the matrix entry and the zero word: its part inside the matrix does not see
  what a cut fetch left past the matrix's end. (2) The padded row of ids is one array read through two windows; each
  window holds it at half the full share, and the halves make the whole again at the end. (3) The ids themselves are no
  window's array: they pass by the region untouched and are read back from what the launch kept aside.
-/
import proofs.«110070_j50216757625014_2_alg».proof.Proof.BitsTileData
import Idealize.ShloMosaic.Lib.Pipeline.Kit

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The masked tile, entry by entry -/

theorem zeros2 : (![0, 0] : Fin 2 → Nat) = fun _ => 0 := funext fun a => by fin_cases a <;> rfl

/-- Where the row-aligned id equals the column-aligned id. -/
def sameGroup (x1 : Vec F S1x1280 .i32) (x2 : Vec F S1x1280 .i32) : IVec S1280x1280 1 :=
  cmpi .eq
    (broadcastTo S1280x1280 (transpose S1280x1 [1, 0] (shapeCast S1x1280 x1 shapeCasts_S1x1280_S1x1280) transposes_S1x1280_p1_0_S1280x1) broadcasts_S1280x1_S1280x1280)
    (broadcastTo S1280x1280 (shapeCast S1x1280 x2 shapeCasts_S1x1280_S1x1280) broadcasts_S1x1280_S1280x1280)

/-- The all-zero tile. -/
def zeroTile : Vec F S1280x1280 .f32 := broadcast S1280x1280 (Scalar.ofBits (F := F) .f32 0x00000000#32)

/-- The body's one store, over the whole tile, leaves the masked tile: the matrix entry where the two ids agree,
    the zero word elsewhere. -/
theorem outTile_eq (x0 : Vec F S1280x1280 .f32) (x1 : Vec F S1x1280 .i32) (x2 : Vec F S1x1280 .i32) :
    outTile x0 x1 x2 = select (sameGroup x1 x2) x0 (zeroTile (F := F)) := by
  unfold outTile
  rw [View.canon_unit_zero zeros2]
  simp only [View.ld_unit_zero (S := S1x1280) zeros2, View.ld_unit_zero (S := S1280x1280) zeros2]
  rfl

/-- The part of a masked tile inside the matrix is the mask applied to the part of the matrix tile inside the
    matrix: what lies past the matrix's end in the input does not reach it. -/
theorem cut_masked (i : grid0.Coords) (M : IVec S1280x1280 1) (Z d : Vec F S1280x1280 .f32)
    (g : (win0_0.xblock i).Idx → Elt F .f32) :
    win0_0.cut i (select M (win0_0.fill i d g) Z)
      = fun y => Scalar.select (M (win0_0.xinj i y)) (g y) (Z (win0_0.xinj i y)) := by
  funext y
  show Scalar.select (M (win0_0.xinj i y)) (win0_0.fill i d g (win0_0.xinj i y)) (Z (win0_0.xinj i y)) = _
  rw [win0_0.fill_xinj]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two cut windows' buffers stated on the part inside the matrix only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. The matrix's buffer arrives holding its tile with anything past the matrix's end; the
    masked tile it produces agrees, inside the matrix, with the one computed from the zero-filled tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (tileIn m c t) = iblk m c 0 t from win0_0.cut_fill _ _ _]
    iexact H0
  isplitl [H1]; · iexact H1
  isplitl [H2]; · iexact H2
  iexists outTile (win0_0.fill (grid0.coords t) d0 (iblk m c 0 t)) (iblk m c 1 t) (iblk m c 2 t)
  have hcut : win0_3.cut (grid0.coords t) (outTile (win0_0.fill (grid0.coords t) d0 (iblk m c 0 t)) (iblk m c 1 t) (iblk m c 2 t))
      = win0_3.cut (grid0.coords t) (outTile (tileIn m c t) (iblk m c 1 t) (iblk m c 2 t)) := by
    rw [outTile_eq, outTile_eq]
    show win0_0.cut (grid0.coords t) (select _ (win0_0.fill (grid0.coords t) d0 (iblk m c 0 t)) _)
      = win0_0.cut (grid0.coords t) (select _ (win0_0.fill (grid0.coords t) _ (iblk m c 0 t)) _)
    rw [cut_masked, cut_masked]
  rw [win0_3.fill_congr_cut (grid0.coords t) hcut]
  iexact H3

/-- The library's body obligation, in the form that states a cut window's buffer on the moved part only. -/
theorem body_obligation (c : Dev nD) : BodyObligationLoose (dats (F := F) m 0 c) (defs₀ (F := F)) Variants.none () Set.univ := fun t => by
  rw [bigSep_W0, bigSep_W0]
  exact sound_body m c t

/-! ## The one row array, held half and half -/

/-- The arrays behind the four windows are three buffers (the matrix, the padded row of ids, the result), each whole
    at the region-entry contents, one after the other. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v1, main_v2] (by decide) (by decide) _

/-- Every window's array is a whole buffer: the windows' arrays, as points-tos of whole buffers at the windows' shares. -/
theorem arrays_whole (c : Dev nD) (G : (w : Fin cfg0.W) → Buf (Elt F) ((cfg0.win w).arr.view.loc (c : Thread nD τ))) :
    (dats m 0 c).arrays G
      = bigSep Finset.univ fun w => ((((c : Thread nD τ).loc (Pipeline.arrRef spec0 w)) ↦{(dats m 0 c).share w} G w : sProp 𝕄)) := by
  unfold Dat.arrays
  exact bigSep_congr fun w _ => by rw [(arr_whole0 w).set_eq_univ]

/-- The three buffers, whole, make the four windows' arrays: the matrix and the result held outright, the padded row
    of ids split in two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_whole, bigSep_W0]
  rw [show (dats m 0 c).share 0 = fullShare from rfl, show (dats m 0 c).share 1 = fullShare.left from rfl,
    show (dats m 0 c).share 2 = fullShare.right from rfl, show (dats m 0 c).share 3 = fullShare from rfl]
  iintro ⟨H0, H1, H2⟩
  have hhalf : ((((c : Thread nD τ).loc main_v1) ↦{fullShare} V m c main_v1) : sProp 𝕄)
      ⊢ iprop((((c : Thread nD τ).loc main_v1) ↦{fullShare.left} V m c main_v1) ∗ (((c : Thread nD τ).loc main_v1) ↦{fullShare.right} V m c main_v1)) :=
    (pointsTo_share (PosShare.mem_left_op_right fullShare)).1
  ihave Hh := hhalf $$ H1
  icases Hh with ⟨Hl, Hr⟩
  isplitl [H0]; · iexact H0
  isplitl [Hl]; · iexact Hl
  isplitl [Hr]; · iexact Hr
  iexact H2

/-! ## The run -/

/-- The launch element of the transfers' bookkeeping: every staging cell's owner at round 0 and a token for every
    transfer the pipeline issues. -/
def u₀ : UR sig nD τ := initOf (Pipeline.cells cfgs cellOf_inj) (Pipeline.launchToks cfgs cellOf_inj)

/-- What the run ends in: every window's array at what the write-backs computed, every other unscoped buffer as the
    region found it. -/
def RunPost : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of the
    program terminates without a fault in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := body_obligation m)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h c => h c)

/-- The frame: the program runs to the end, faults nowhere, and leaves the matrix and the ids as launched — the
    matrix an input window's array (never written), the ids a buffer the region passes by. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel.Tiles

end
-- ==== Proof.IdealTileBody.lean ====
/-
  One grid point of the masking kernel, as a statement about its four staging buffers.
  The body reads a row of 1280 group ids aligned with the tile's rows, a row of 1280 group ids aligned with its
  columns, and a 1280 x 1280 tile of the matrix; it writes, over the whole output tile, the matrix entry where the
  row's id equals the column's id and the zero word elsewhere. It also reads the output tile once and discards what
  it read. Nothing else is touched: the three inputs are left as found.
-/
import proofs.«110070_j50216757625014_2_alg».proof.Proof.Gen.KernelIdeal.Launch
import proofs.«110070_j50216757625014_2_alg».proof.Proof.Gen.KernelIdeal.Skeleton
import proofs.«110070_j50216757625014_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole row of 1280 ids, as the rectangle the two row loads read. -/
abbrev rowRect : Rect S1x1280 := Rect.unit (s := S1x1280) ![0, 0] S1x1280.size inb_S1x1280_S1x1280_0_0
/-- The whole 1280 x 1280 tile, as the rectangle the tile load and the store use. -/
abbrev tileRect : Rect S1280x1280 := Rect.unit (s := S1280x1280) ![0, 0] S1280x1280.size inb_S1280x1280_S1280x1280_0_0

/-- What the output tile holds after the body, from what the three inputs hold: its one store, over the whole tile,
    of the masked tile. -/
def outTile (x0 : Vec F S1280x1280 .f32) (x1 : Vec F S1x1280 .i32) (x2 : Vec F S1x1280 .i32) : Vec F S1280x1280 .f32 :=
  View.canon [⟨tileRect, k0_pay1 (View.ld x1 rowRect) (View.ld x2 rowRect) (View.ld x0 tileRect)⟩]

/-- The one store covers the tile. -/
theorem coverTile (p0 : Vec F S1280x1280 .f32) (y : S1280x1280.Idx) :
    ∃ pc ∈ ([⟨tileRect, p0⟩] : List (View.Piece (Elt F) S1280x1280 .f32)), y ∈ pc.1.set :=
  View.cover_of_tiled [⟨tileRect, p0⟩] S1280x1280.size (by rfl) y

set_option maxHeartbeats 1000000 in
/-- The body on whole staging memrefs: the matrix tile at `x0`, the row-aligned ids at `x1`, the column-aligned ids
    at `x2`, the output tile at anything. It runs to the continuation with the inputs as they were and the output tile
    at `outTile x0 x1 x2`. -/
theorem sound_kernel (c : Dev nD) (E : Set ℕ) (i : grid0.Coords)
    (arg2 : Memref sig .tc .vmem S1280x1280 .f32) (harg2 : arg2.IsWhole)
    (arg3 : Memref sig .tc .vmem S1x1280 .i32) (harg3 : arg3.IsWhole)
    (arg4 : Memref sig .tc .vmem S1x1280 .i32) (harg4 : arg4.IsWhole)
    (arg5 : Memref sig .tc .vmem S1280x1280 .f32) (harg5 : arg5.IsWhole)
    (x0 : Vec F S1280x1280 .f32) (x1 : Vec F S1x1280 .i32) (x2 : Vec F S1x1280 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (outTile x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTile _)

end Cert.KernelIdeal.Tiles

end
-- ==== Proof.IdealTileData.lean ====
/-
  What each staging buffer holds at each of the 81 grid points, and the body's obligation there.
  The matrix is cut into 9 x 9 tiles of 1280 x 1280; 9 * 1280 = 11520 exceeds 11440, so the last tile of each axis
  overhangs the matrix by 80 and its transfers are cut to the 1200 rows or columns inside. A cut fetch leaves the part
  of the buffer past the matrix at contents nobody names; since the body works entry by entry, what it writes on the
  part inside the matrix does not depend on them, and that part is all the write-back moves. The padded row of group
  ids (11520 long) is read through two windows — block i for the tile's rows, block j for its columns — and both lie
  inside it at every point.
-/
import proofs.«110070_j50216757625014_2_alg».proof.Proof.IdealTileBody
import Idealize.ShloMosaic.Lib.Pipeline.Frame

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's region -/

/-- The device's buffers when the region is entered: after the constant -1, the padding of the ids to 11520 and its
    reshaping into one row. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is those three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes the matrix: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the ids. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`, read off its array as the region finds it: for the matrix and the result, the
    part of the tile inside the matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The matrix tile at point `t` as a full 1280 x 1280 tile: its part inside the matrix, and the zero word past the
    matrix's end (a filler nothing reads). -/
def tileIn (c : Dev nD) (t : Fin cfg0.N) : S1280x1280.Idx → Elt F .f32 :=
  win0_0.fill (grid0.coords t) (fun _ => Scalar.ofBits .f32 0#32) (iblk m c 0 t)

/-! ## The proof data -/

/-- After the body at point `t`: the matrix's buffer holds its tile, the two id buffers their blocks, the result's the
    masked tile. No invariant, nothing owed; the one row array is held half and half by its two windows. -/
def dats (_ : Fin 1) (c : Dev nD) : Dat τ (Elt F) Unit ℕ (UR sig nD τ) ℕ cfg0 c where
  A w := V m c (Pipeline.arrRef spec0 w)
  after w t := match w with
    | ⟨0, _⟩ => tileIn m c t
    | ⟨1, _⟩ => iblk m c 1 t
    | ⟨2, _⟩ => iblk m c 2 t
    | ⟨3, _⟩ => outTile (tileIn m c t) (iblk m c 1 t) (iblk m c 2 t)
  Φ _ := iprop(emp)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tileIn m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outTile (tileIn m c t) (iblk m c 1 t) (iblk m c 2 t) := by dsimp only [dats]

/-! ## What the body finds -/

/-- The matrix's buffer was just fetched: its tile's part inside the matrix, and `d` past the matrix's end. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl

/-- The row-aligned ids' buffer holds block i, fetched at this point or kept from the point before (the block index
    moves only when the row of tiles changes). -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The column-aligned ids' buffer holds block j. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The result's buffer is fresh at every point (every point writes its tile back): it holds anything. -/
theorem before0_3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

end Cert.KernelIdeal.Tiles

end
-- ==== Proof.IdealTileRun.lean ====
/-
  The launch of the masking kernel and what it leaves: every weakly fair execution ends, nothing faults, the
  matrix and the ids are as launched, and the result array holds what the 81 write-backs put there.
  Three facts carry it. (1) The body's one store covers its tile, so the tile ends at the masked tile, and the masked
  tile is an entrywise choice between the matrix entry and the zero word: its part inside the matrix does not see
  what a cut fetch left past the matrix's end. (2) The padded row of ids is one array read through two windows; each
  window holds it at half the full share, and the halves make the whole again at the end. (3) The ids themselves are no
  window's array: they pass by the region untouched and are read back from what the launch kept aside.
-/
import proofs.«110070_j50216757625014_2_alg».proof.Proof.IdealTileData
import Idealize.ShloMosaic.Lib.Pipeline.Kit

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The masked tile, entry by entry -/

theorem zeros2 : (![0, 0] : Fin 2 → Nat) = fun _ => 0 := funext fun a => by fin_cases a <;> rfl

/-- Where the row-aligned id equals the column-aligned id. -/
def sameGroup (x1 : Vec F S1x1280 .i32) (x2 : Vec F S1x1280 .i32) : IVec S1280x1280 1 :=
  cmpi .eq
    (broadcastTo S1280x1280 (transpose S1280x1 [1, 0] (shapeCast S1x1280 x1 shapeCasts_S1x1280_S1x1280) transposes_S1x1280_p1_0_S1280x1) broadcasts_S1280x1_S1280x1280)
    (broadcastTo S1280x1280 (shapeCast S1x1280 x2 shapeCasts_S1x1280_S1x1280) broadcasts_S1x1280_S1280x1280)

/-- The all-zero tile. -/
def zeroTile : Vec F S1280x1280 .f32 := broadcast S1280x1280 (Scalar.ofBits (F := F) .f32 0x00000000#32)

/-- The body's one store, over the whole tile, leaves the masked tile: the matrix entry where the two ids agree,
    the zero word elsewhere. -/
theorem outTile_eq (x0 : Vec F S1280x1280 .f32) (x1 : Vec F S1x1280 .i32) (x2 : Vec F S1x1280 .i32) :
    outTile x0 x1 x2 = select (sameGroup x1 x2) x0 (zeroTile (F := F)) := by
  unfold outTile
  rw [View.canon_unit_zero zeros2]
  simp only [View.ld_unit_zero (S := S1x1280) zeros2, View.ld_unit_zero (S := S1280x1280) zeros2]
  rfl

/-- The part of a masked tile inside the matrix is the mask applied to the part of the matrix tile inside the
    matrix: what lies past the matrix's end in the input does not reach it. -/
theorem cut_masked (i : grid0.Coords) (M : IVec S1280x1280 1) (Z d : Vec F S1280x1280 .f32)
    (g : (win0_0.xblock i).Idx → Elt F .f32) :
    win0_0.cut i (select M (win0_0.fill i d g) Z)
      = fun y => Scalar.select (M (win0_0.xinj i y)) (g y) (Z (win0_0.xinj i y)) := by
  funext y
  show Scalar.select (M (win0_0.xinj i y)) (win0_0.fill i d g (win0_0.xinj i y)) (Z (win0_0.xinj i y)) = _
  rw [win0_0.fill_xinj]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two cut windows' buffers stated on the part inside the matrix only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. The matrix's buffer arrives holding its tile with anything past the matrix's end; the
    masked tile it produces agrees, inside the matrix, with the one computed from the zero-filled tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (tileIn m c t) = iblk m c 0 t from win0_0.cut_fill _ _ _]
    iexact H0
  isplitl [H1]; · iexact H1
  isplitl [H2]; · iexact H2
  iexists outTile (win0_0.fill (grid0.coords t) d0 (iblk m c 0 t)) (iblk m c 1 t) (iblk m c 2 t)
  have hcut : win0_3.cut (grid0.coords t) (outTile (win0_0.fill (grid0.coords t) d0 (iblk m c 0 t)) (iblk m c 1 t) (iblk m c 2 t))
      = win0_3.cut (grid0.coords t) (outTile (tileIn m c t) (iblk m c 1 t) (iblk m c 2 t)) := by
    rw [outTile_eq, outTile_eq]
    show win0_0.cut (grid0.coords t) (select _ (win0_0.fill (grid0.coords t) d0 (iblk m c 0 t)) _)
      = win0_0.cut (grid0.coords t) (select _ (win0_0.fill (grid0.coords t) _ (iblk m c 0 t)) _)
    rw [cut_masked, cut_masked]
  rw [win0_3.fill_congr_cut (grid0.coords t) hcut]
  iexact H3

/-- The library's body obligation, in the form that states a cut window's buffer on the moved part only. -/
theorem body_obligation (c : Dev nD) : BodyObligationLoose (dats (F := F) m 0 c) (defs₀ (F := F)) Variants.none () Set.univ := fun t => by
  rw [bigSep_W0, bigSep_W0]
  exact sound_body m c t

/-! ## The one row array, held half and half -/

/-- The arrays behind the four windows are three buffers (the matrix, the padded row of ids, the result), each whole
    at the region-entry contents, one after the other. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v1, main_v2] (by decide) (by decide) _

/-- Every window's array is a whole buffer: the windows' arrays, as points-tos of whole buffers at the windows' shares. -/
theorem arrays_whole (c : Dev nD) (G : (w : Fin cfg0.W) → Buf (Elt F) ((cfg0.win w).arr.view.loc (c : Thread nD τ))) :
    (dats m 0 c).arrays G
      = bigSep Finset.univ fun w => ((((c : Thread nD τ).loc (Pipeline.arrRef spec0 w)) ↦{(dats m 0 c).share w} G w : sProp 𝕄)) := by
  unfold Dat.arrays
  exact bigSep_congr fun w _ => by rw [(arr_whole0 w).set_eq_univ]

/-- The three buffers, whole, make the four windows' arrays: the matrix and the result held outright, the padded row
    of ids split in two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_whole, bigSep_W0]
  rw [show (dats m 0 c).share 0 = fullShare from rfl, show (dats m 0 c).share 1 = fullShare.left from rfl,
    show (dats m 0 c).share 2 = fullShare.right from rfl, show (dats m 0 c).share 3 = fullShare from rfl]
  iintro ⟨H0, H1, H2⟩
  have hhalf : ((((c : Thread nD τ).loc main_v1) ↦{fullShare} V m c main_v1) : sProp 𝕄)
      ⊢ iprop((((c : Thread nD τ).loc main_v1) ↦{fullShare.left} V m c main_v1) ∗ (((c : Thread nD τ).loc main_v1) ↦{fullShare.right} V m c main_v1)) :=
    (pointsTo_share (PosShare.mem_left_op_right fullShare)).1
  ihave Hh := hhalf $$ H1
  icases Hh with ⟨Hl, Hr⟩
  isplitl [H0]; · iexact H0
  isplitl [Hl]; · iexact Hl
  isplitl [Hr]; · iexact Hr
  iexact H2

/-! ## The run -/

/-- The launch element of the transfers' bookkeeping: every staging cell's owner at round 0 and a token for every
    transfer the pipeline issues. -/
def u₀ : UR sig nD τ := initOf (Pipeline.cells cfgs cellOf_inj) (Pipeline.launchToks cfgs cellOf_inj)

/-- What the run ends in: every window's array at what the write-backs computed, every other unscoped buffer as the
    region found it. -/
def RunPost : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of the
    program terminates without a fault in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := body_obligation m)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h c => h c)

/-- The frame: the program runs to the end, faults nowhere, and leaves the matrix and the ids as launched — the
    matrix an input window's array (never written), the ids a buffer the region passes by. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Tiles

end
-- ==== Proof.MaskedMatrix.lean ====
/-
  The masked matrix. Given an 11440 x 11440 matrix and a vector of 11440 integer group ids, entry (i, j) of the
  result is the matrix's entry (i, j) when id i equals id j, and the zero word otherwise: the matrix with every
  block between two different groups erased. Both programs compute this, entry by entry, with no arithmetic on the
  floating-point values at all — an entry is either copied or replaced by zero.
-/
import Idealize.ShloMosaic.PureOps

noncomputable section

namespace Cert.MaskedMatrix

open Idealize.ShloMosaic

variable {F : FTy → Type} [FloatOps F]

/-- The matrix's shape and the id vector's. -/
abbrev Mat : Shape := ⟨2, ![11440, 11440]⟩
abbrev Ids : Shape := ⟨1, ![11440]⟩

/-- Position `k` of the id vector. -/
abbrev idPos (k : Nat) (h : k < 11440) : Ids.Idx := fun a => match a with
  | ⟨0, _⟩ => ⟨k, h⟩

/-- The masked matrix, entry by entry. -/
def masked (rho : Mat.Idx → Elt F .f32) (ids : Ids.Idx → Elt F .i32) : Mat.Idx → Elt F .f32 :=
  fun i => Scalar.select (IntOp.cmpi .eq (ids (idPos (i 0).val (i 0).isLt)) (ids (idPos (i 1).val (i 1).isLt))) (rho i)
    (FloatOps.ofBits .f32 0x00000000#32)

end Cert.MaskedMatrix

end
-- ==== Proof.IdealTileValue.lean ====
/-
  The kernel's result array is the masked matrix.
  Point t = (i, j) of the 9 x 9 grid writes back the part inside the matrix of tile (i, j): rows 1280 i to
  1280 i + 1279 (to 11439 in the last row of tiles), columns likewise. Its entry (r, s) is the matrix's entry
  (1280 i + r, 1280 j + s) where the row-aligned id block's entry r — id 1280 i + r of the padded row — equals the
  column-aligned block's entry s — id 1280 j + s —, and zero elsewhere. Inside the matrix both positions are below
  11440, where the padded row is the id vector itself (the padding by -1 starts at 11440). So each write-back is its
  block of the masked matrix; the 81 blocks cover the matrix (entry (a, b) lies in tile (a / 1280, b / 1280)); hence
  the array ends holding the masked matrix.
-/
import proofs.«110070_j50216757625014_2_alg».proof.Proof.IdealTileRun
import proofs.«110070_j50216757625014_2_alg».proof.Proof.MaskedMatrix
import Idealize.ShloMosaic.Lib.StableHlo.Run
import Idealize.ShloMosaic.Lib.KernelVsHost

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.MaskedMatrix Idealize.ShloMosaic.StableHlo

variable (m : (ℓ : Loc nD τ sig) → Buf (Elt F) ℓ) (ρ : Dev nD → PrngReg)

/-! ## The padded row of ids -/

/-- At the region's entry the row array holds the ids padded by 80 entries of -1 and laid out as one row. -/
theorem V_main_v1 (c : Dev nD) : (V m c main_v1 : S1x11520.Idx → Elt F .i32)
    = shapeCast S1x11520 (pad S11520 ![0] ![80] ![0] (m ((c : Thread nD τ).loc main_arg1)) (constantI S_ 32 4294967295#32) pads_S11440_S11520_0800 h_S_) shapeCasts_S11520_S1x11520 := by
  dsimp only [V]
  simp only [hostOps0, hostOps0_1, hostOps0_2, List.flatten_cons, List.flatten_nil, List.append_nil, List.cons_append, List.nil_append]
  after_results; rfl

/-- Read at a column below 11440, the padded row is the id there. -/
theorem V_main_v1_apply (c : Dev nD) (j : S1x11520.Idx) (h : (j 1).val < 11440) :
    V m c main_v1 j = m ((c : Thread nD τ).loc main_arg1) (idPos (j 1).val h) := by
  rw [V_main_v1]
  have h0 : (j 0).val < 1 := (j 0).isLt
  refine (shapeCast_apply _ shapeCasts_S11520_S1x11520 j (fun a => match a with | ⟨0, _⟩ => ⟨(j 1).val, (j 1).isLt⟩) ?_).trans ?_
  · rw [Shape.rowMajor_val_one, Shape.rowMajor_val_two]
    show (j 1).val = (j 0).val * 11520 + (j 1).val
    omega
  · exact pad_apply_of_inside _ _ _ _ _ pads_S11440_S11520_0800 h_S_ _ (idPos (j 1).val h) (fun a => match a with
      | ⟨0, _⟩ => by show (j 1).val = 0 + (j 1).val * (0 + 1); omega)

/-! ## The mask, entry by entry -/

/-- Entry `k` of a row of 1280. -/
abbrev rowIx (k : Nat) (h : k < 1280) : S1x1280.Idx := fun a => match a with
  | ⟨0, _⟩ => ⟨0, Nat.one_pos⟩
  | ⟨1, _⟩ => ⟨k, h⟩

/-- The mask at entry (r, s) of the tile compares entry r of the row-aligned ids with entry s of the column-aligned
    ids: the transposed row spread along the columns against the row spread down the rows. -/
theorem sameGroup_apply (x1 x2 : Vec F S1x1280 .i32) (j : S1280x1280.Idx) :
    sameGroup x1 x2 j = IntOp.cmpi .eq (x1 (rowIx (j 0).val (j 0).isLt)) (x2 (rowIx (j 1).val (j 1).isLt)) := by
  unfold sameGroup
  show IntOp.cmpi .eq (broadcastTo S1280x1280 _ broadcasts_S1280x1_S1280x1280 j) (broadcastTo S1280x1280 _ broadcasts_S1x1280_S1280x1280 j) = _
  have e1 : broadcastTo S1280x1280 (transpose S1280x1 [1, 0] (shapeCast S1x1280 x1 shapeCasts_S1x1280_S1x1280) transposes_S1x1280_p1_0_S1280x1) broadcasts_S1280x1_S1280x1280 j
      = x1 (rowIx (j 0).val (j 0).isLt) := by
    refine (broadcastTo_apply _ broadcasts_S1280x1_S1280x1280 j (fun a => match a with | ⟨0, _⟩ => ⟨(j 0).val, (j 0).isLt⟩ | ⟨1, _⟩ => ⟨0, Nat.one_pos⟩) (fun a => match a with
      | ⟨0, _⟩ => by show (j 0).val = if (1280 : Nat) = 1 then 0 else (j 0).val; rw [if_neg (by decide)]
      | ⟨1, _⟩ => by show 0 = if (1 : Nat) = 1 then 0 else (j 1).val; rw [if_pos rfl])).trans ?_
    refine (transpose_apply [1, 0] _ transposes_S1x1280_p1_0_S1280x1 _ (rowIx (j 0).val (j 0).isLt) (fun b => match b with
      | ⟨0, _⟩ => rfl
      | ⟨1, _⟩ => rfl)).trans ?_
    rw [shapeCast_self]
  have e2 : broadcastTo S1280x1280 (shapeCast S1x1280 x2 shapeCasts_S1x1280_S1x1280) broadcasts_S1x1280_S1280x1280 j
      = x2 (rowIx (j 1).val (j 1).isLt) := by
    refine (broadcastTo_apply _ broadcasts_S1x1280_S1280x1280 j (rowIx (j 1).val (j 1).isLt) (fun a => match a with
      | ⟨0, _⟩ => by show 0 = if (1 : Nat) = 1 then 0 else (j 0).val; rw [if_pos rfl]
      | ⟨1, _⟩ => by show (j 1).val = if (1280 : Nat) = 1 then 0 else (j 1).val; rw [if_neg (by decide)])).trans ?_
    rw [shapeCast_self]
  rw [e1, e2]

/-! ## What each point writes back -/

/-- The printed index maps over the grid: the matrix's tile and the result's are the same tile (i, j); the row-aligned
    ids are block i of the one row, the column-aligned ids block j; and i, j are at most 8. -/
theorem idx_facts : ∀ t : Fin cfg0.N,
      win0_0.index t (0 : Fin 2) = win0_3.index t (0 : Fin 2) ∧ win0_0.index t (1 : Fin 2) = win0_3.index t (1 : Fin 2)
    ∧ win0_1.index t (0 : Fin 2) = 0 ∧ win0_1.index t (1 : Fin 2) = win0_3.index t (0 : Fin 2)
    ∧ win0_2.index t (0 : Fin 2) = 0 ∧ win0_2.index t (1 : Fin 2) = win0_3.index t (1 : Fin 2)
    ∧ win0_3.index t (0 : Fin 2) ≤ 8 ∧ win0_3.index t (1 : Fin 2) ≤ 8 :=
  (by decide +kernel : ∀ t : Fin grid0.N, _)

/-- Every tile (q0, q1) of the 9 x 9 is some point's. -/
theorem idx_onto : ∀ (q0 : Fin 9) (q1 : Fin 9), ∃ t : Fin cfg0.N, win0_3.index t = ![q0.val, q1.val] :=
  (by decide +kernel : ∀ (q0 : Fin 9) (q1 : Fin 9), ∃ t : Fin grid0.N, win0_3.index t = ![q0.val, q1.val])

/-- Two positions of the id vector with the same number are the same position. -/
theorem idPos_congr {a b : Nat} (e : a = b) (ha : a < 11440) (hb : b < 11440) : idPos a ha = idPos b hb := by
  subst e; rfl

/-- An entry chosen by comparing the ids at its own row and column is the masked matrix's entry. -/
theorem entry_masked (A0 : S11440x11440.Idx → Elt F .f32) (A1 : S11440.Idx → Elt F .i32) (i : S11440x11440.Idx)
    (g1 g2 : Elt F .i32) (v : Elt F .f32) (z : Elt F .f32)
    (h1 : g1 = A1 (idPos (i 0).val (i 0).isLt)) (h2 : g2 = A1 (idPos (i 1).val (i 1).isLt)) (hv : v = A0 i)
    (hz : z = FloatOps.ofBits .f32 0x00000000#32) :
    Scalar.select (IntOp.cmpi .eq g1 g2) v z = masked (F := F) A0 A1 i := by
  subst h1 h2 hv hz; rfl

/-- WHAT POINT `t` WRITES BACK is its block of the masked matrix of the two arguments. -/
theorem flushed3_eq (c : Dev nD) (t : Fin cfg0.N) :
    (dats m 0 c).flushed 3 t
      = ((cfg0.win 3).blk t).view.read (Elt F) (masked (F := F) (m ((c : Thread nD τ).loc main_arg0)) (m ((c : Thread nD τ).loc main_arg1))) := by
  show (cfg0.win 3).cut (grid0.coords t) ((dats m 0 c).after 3 t) = _
  rw [after0_3, outTile_eq]
  show win0_0.cut (grid0.coords t) (select _ (win0_0.fill (grid0.coords t) _ (iblk m c 0 t)) _) = _
  rw [cut_masked]
  obtain ⟨e00, e01, e10, e11, e20, e21, b0, b1⟩ := idx_facts t
  funext y
  rw [sameGroup_apply]
  -- the entry's position in the matrix
  have p0 : ((((cfg0.win 3).blk t).view.emb y) 0).val = win0_3.index t (0 : Fin 2) * 1280 + 1 * (y 0).val := rfl
  have p1 : ((((cfg0.win 3).blk t).view.emb y) 1).val = win0_3.index t (1 : Fin 2) * 1280 + 1 * (y 1).val := rfl
  have l0 : ((((cfg0.win 3).blk t).view.emb y) 0).val < 11440 := ((((cfg0.win 3).blk t).view.emb y) 0).isLt
  have l1 : ((((cfg0.win 3).blk t).view.emb y) 1).val < 11440 := ((((cfg0.win 3).blk t).view.emb y) 1).isLt
  refine entry_masked _ _ (((cfg0.win 3).blk t).view.emb y) _ _ _ _ ?_ ?_ ?_ rfl
  · -- the row-aligned id
    show V m c main_v1 (((cfg0.win 1).blk t).view.emb (rowIx (y 0).val _)) = _
    have q : ((((cfg0.win 1).blk t).view.emb (rowIx (y 0).val (win0_0.xinj (grid0.coords t) y 0).isLt)) 1).val
        = win0_1.index t (1 : Fin 2) * 1280 + 1 * (y 0).val := rfl
    rw [V_main_v1_apply m c _ (by rw [q, e11]; omega)]
    exact congrArg _ (idPos_congr (by rw [q, e11, p0]) _ _)
  · -- the column-aligned id
    show V m c main_v1 (((cfg0.win 2).blk t).view.emb (rowIx (y 1).val _)) = _
    have q : ((((cfg0.win 2).blk t).view.emb (rowIx (y 1).val (win0_0.xinj (grid0.coords t) y 1).isLt)) 1).val
        = win0_2.index t (1 : Fin 2) * 1280 + 1 * (y 1).val := rfl
    rw [V_main_v1_apply m c _ (by rw [q, e21]; omega)]
    exact congrArg _ (idPos_congr (by rw [q, e21, p1]) _ _)
  · -- the matrix entry
    show V m c main_arg0 (((cfg0.win 0).blk t).view.emb y) = _
    rw [V_main_arg0]
    refine congrArg _ (funext fun a => Fin.ext ?_)
    match a with
    | ⟨0, _⟩ => show win0_0.index t (0 : Fin 2) * 1280 + 1 * (y 0).val = win0_3.index t (0 : Fin 2) * 1280 + 1 * (y 0).val; rw [e00]
    | ⟨1, _⟩ => show win0_0.index t (1 : Fin 2) * 1280 + 1 * (y 1).val = win0_3.index t (1 : Fin 2) * 1280 + 1 * (y 1).val; rw [e01]

/-! ## The tiles cover the matrix -/

/-- The part of tile (i, j) inside the matrix has 1280 rows, or 1200 in the last row of tiles (8 * 1280 + 1200 =
    11440), and columns likewise. -/
theorem extent_facts : ∀ t : Fin cfg0.N,
      win0_3.xsize (grid0.coords t) (0 : Fin 2) = (if win0_3.index t (0 : Fin 2) = 8 then 1200 else 1280)
    ∧ win0_3.xsize (grid0.coords t) (1 : Fin 2) = (if win0_3.index t (1 : Fin 2) = 8 then 1200 else 1280) :=
  (by decide +kernel : ∀ t : Fin grid0.N, _)

/-- An entry of the matrix is in point `t`'s block iff each coordinate is in the tile's range on its axis, cut at the
    matrix's end. -/
theorem mem_blk3 (t : Fin cfg0.N) (i : S11440x11440.Idx) :
    i ∈ ((cfg0.win 3).blk t).view.set ↔ ∀ a : Fin 2, win0_3.index t a * S1280x1280.size a ≤ (i a).val
      ∧ (i a).val < win0_3.index t a * S1280x1280.size a + win0_3.xsize (grid0.coords t) a := by
  show i ∈ ((View.whole main_v2).slice (win0_3.rect t)).set ↔ _
  rw [View.set_slice_whole, Rect.mem_set_unit]
  exact Iff.rfl

/-- Entry (a, b) lies in the block of the point whose tile is (a / 1280, b / 1280). -/
theorem cover3 (i : S11440x11440.Idx) :
    ∃ t : Fin cfg0.N, (cfg0.win 3).flush t = true ∧ i ∈ ((cfg0.win 3).blk t).view.set := by
  have hi0 : (i 0).val < 11440 := (i 0).isLt
  have hi1 : (i 1).val < 11440 := (i 1).isLt
  obtain ⟨t, ht⟩ := idx_onto ⟨(i 0).val / 1280, by omega⟩ ⟨(i 1).val / 1280, by omega⟩
  have q0 : win0_3.index t (0 : Fin 2) = (i 0).val / 1280 := congrFun ht 0
  have q1 : win0_3.index t (1 : Fin 2) = (i 1).val / 1280 := congrFun ht 1
  obtain ⟨x0, x1⟩ := extent_facts t
  refine ⟨t, flush0_3 t, ?_⟩
  rw [mem_blk3]
  intro a
  match a with
  | ⟨0, _⟩ =>
    show win0_3.index t (0 : Fin 2) * 1280 ≤ (i 0).val ∧ (i 0).val < win0_3.index t (0 : Fin 2) * 1280 + win0_3.xsize (grid0.coords t) (0 : Fin 2)
    rw [x0, q0]; split <;> omega
  | ⟨1, _⟩ =>
    show win0_3.index t (1 : Fin 2) * 1280 ≤ (i 1).val ∧ (i 1).val < win0_3.index t (1 : Fin 2) * 1280 + win0_3.xsize (grid0.coords t) (1 : Fin 2)
    rw [x1, q1]; split <;> omega

/-- THE RESULT ARRAY after the run is the masked matrix of the two arguments. -/
theorem final3 (c : Dev nD) :
    (dats m 0 c).arrAt 3 cfg0.N = masked (F := F) (m ((c : Thread nD τ).loc main_arg0)) (m ((c : Thread nD τ).loc main_arg1)) :=
  (dats m 0 c).arrAt_eq_of_cover 3 _ (fun t _ => flushed3_eq m c t) cover3

/-! ## The run, read -/

/-- Every weakly fair execution ends with the result array at the masked matrix of the arguments, and the arguments
    as launched. -/
theorem run : θ_run defs (onTc (τ := τ) (main (F := F))) ⟨m, fun _ => 0, ρ⟩ fun r => ∀ c : Dev nD,
      r.2.mem ((c.tc : Thread nD τ).loc main_v2) = masked (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Tiles

end
-- ==== Proof.ReferenceMasked.lean ====
/-
  The reference computes the masked matrix. It broadcasts the ids down the rows and along the columns of an
  11440 x 11440 square, compares the two squares entry by entry, and selects between the matrix and a square of
  zeros; read at an entry (i, j) each broadcast is the id vector at i, respectively at j.
-/
import proofs.«110070_j50216757625014_2_alg».proof.Proof.Gen.ReferenceIdeal.Read
import proofs.«110070_j50216757625014_2_alg».proof.Proof.MaskedMatrix

noncomputable section

namespace Cert.ReferenceIdeal.Masked

open Cert.ReferenceIdeal Cert.ReferenceIdeal.Read Cert.MaskedMatrix Idealize.ShloMosaic

variable {F : FTy → Type} [FloatOps F]

/-- The reference's result, as a function of its two arguments, is the masked matrix. -/
theorem reference_masked (x0 : (⟨S11440x11440, .f32⟩ : BufTy).Contents (Elt F)) (x1 : (⟨S11440, .i32⟩ : BufTy).Contents (Elt F)) :
    val_main_v5 (F := F) x0 x1 = masked (F := F) x0 x1 := by
  funext i
  have er : idx_main_v0 (idx_main_v2 i) = idPos (i 0).val (i 0).isLt :=
    funext fun a => Fin.ext (by match a with | ⟨0, _⟩ => rfl)
  have ec : idx_main_v1 (idx_main_v3 i) = idPos (i 1).val (i 1).isLt :=
    funext fun a => Fin.ext (by match a with | ⟨0, _⟩ => rfl)
  rw [val_main_v5_apply, val_main_v4_apply, val_main_v2_apply, val_main_v0_apply, val_main_v3_apply, val_main_v1_apply,
    val_main_call0_v0_apply, val_main_cst_apply, er, ec]
  rfl

end Cert.ReferenceIdeal.Masked

end
-- ==== Proof.lean ====
/-
  A 9 x 9 tiled masking kernel against its one-line reference: both return the 11440 x 11440 matrix with entry
  (i, j) kept where group id i equals group id j and set to zero elsewhere.

  The kernel pads the ids with 80 entries of -1 to a row of 11520 = 9 * 1280, and walks a 9 x 9 grid; at tile (i, j)
  it reads the matrix tile, block i of the row (for the tile's rows, transposed into a column) and block j (for its
  columns), compares the two spread over the tile, and stores the matrix entry or zero. The last tile of each axis
  overhangs the matrix by 80; its transfers are cut to the 1200 rows or columns inside, where every position is
  below 11440 and the padded row is the id vector itself, so the padding value is never compared inside the matrix.
  The reference broadcasts the ids down and across a full square, compares, and selects. Read at an entry both are
  the same choice between the same matrix entry and the same zero word: no law of arithmetic is used and the inputs'
  finiteness is not needed. The kernel's rewriting to exact arithmetic changed no operation, so that conjunct is trivial.
-/
import proofs.«110070_j50216757625014_2_alg».proof.Defs
import proofs.«110070_j50216757625014_2_alg».proof.Proof.Gen.Kernel
import proofs.«110070_j50216757625014_2_alg».proof.Proof.Gen.KernelIdeal
import proofs.«110070_j50216757625014_2_alg».proof.Proof.Gen.ReferenceIdeal
import proofs.«110070_j50216757625014_2_alg».proof.Proof.Gen.Pre_finite_inputs
import proofs.«110070_j50216757625014_2_alg».proof.Proof.Gen.ReferenceIdeal.Run
import proofs.«110070_j50216757625014_2_alg».proof.Proof.Gen.ReferenceIdeal.Read
import proofs.«110070_j50216757625014_2_alg».proof.Proof.BitsTileRun
import proofs.«110070_j50216757625014_2_alg».proof.Proof.IdealTileValue
import proofs.«110070_j50216757625014_2_alg».proof.Proof.ReferenceMasked
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Tiles.frame m ρ

/-- So does the kernel read over the extended reals. -/
theorem frame_kernelIdeal : Cert.frame_KernelIdeal := fun m ρ _ => Cert.KernelIdeal.Tiles.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the masked matrix of arguments that agree. -/
theorem algebraic : Cert.algebraic_KernelIdeal_ReferenceIdeal := by
  intro m ρ m' ρ' _ hagree
  refine ⟨_, Cert.KernelIdeal.Tiles.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Masked.reference_masked, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
